-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16x4096x512 .f32) (main_arg1 : FVec F S512x512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S16x4096x512 : Shape := ⟨3, ![16, 4096, 512]⟩
abbrev S512x512 : Shape := ⟨2, ![512, 512]⟩
abbrev S65536x512 : Shape := ⟨2, ![65536, 512]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S65536x512, .f32⟩
  | .hbm, ⟨3, _⟩ => ⟨S512x512, .f32⟩
  | .hbm, ⟨4, _⟩ => ⟨S65536x512, .f32⟩
  | .hbm, ⟨5, _⟩ => ⟨S16x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x512_S65536x512 : S16x4096x512.ShapeCasts S65536x512
  transposes_S512x512_S512x512_1_0 : S512x512.Transposes [1, 0] S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S65536x512_S16x4096x512 : S65536x512.ShapeCasts S16x4096x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S_, .f32⟩
  | .hbm, ⟨3, _⟩ => ⟨S512x512, .f32⟩
  | .hbm, ⟨4, _⟩ => ⟨S512x512, .i1⟩
  | .hbm, ⟨5, _⟩ => ⟨S_, .f32⟩
  | .hbm, ⟨6, _⟩ => ⟨S512x512, .f32⟩
  | .hbm, ⟨7, _⟩ => ⟨S512x512, .i1⟩
  | .hbm, ⟨8, _⟩ => ⟨S_, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  dot_S16x4096x512_S512x512_S16x4096x512_2_1_01_0_n_n_wf : DotDims.WF S16x4096x512 S512x512 S16x4096x512 [2] [1] [0, 1] [0] [] []

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.Spec.lean ====
/-
  The mathematics both programs compute, stated once, over no program.

  A weight entry `w` is sent to its TERNARY THRESHOLD `tern w`: `1` where `w` exceeds the threshold `0.3` (the f32 nearest
  to it, as an extended real), `-1` where `w` is below its negative, `0` in between. The layer is the linear map of
  the thresholded weight: entry `(b, s, o)` of the result is the sum over `k` of `x (b, s, k) * tern (w (o, k))`.

  One law of the extended reals is needed to meet the reference, which spells the thresholded weight as
  `w + (tern w - w)`: for a REAL `r` and any extended real `b`, `r + (b - r) = b`. It fails for an infinite `r`
  (`⊤ + (b - ⊤) = ⊥`), which is where the finiteness of the weight is used.
-/
import Idealize.ShloMosaic.PureOps.Ideal
import Idealize.ShloMosaic.Lib.ValueIdx

noncomputable section

open scoped BigOperators

namespace Cert.TernaryLinear

open Idealize.ShloMosaic Idealize.ShloMosaic.ValueIdx

/-- The ternary threshold of one weight entry: `1` above `0.3`, `-1` below `-0.3`, else `0` (the four numbers as the
    f32 words the programs print; a comparison's bit selects). -/
def tern (w : EReal) : EReal :=
  Scalar.select (Ideal.cmp .ogt w (Ideal.ofBits .f32 0x3E99999A#32)) (Ideal.ofBits .f32 0x3F800000#32)
    (Scalar.select (Ideal.cmp .olt w (Ideal.ofBits .f32 0xBE99999A#32)) (Ideal.ofBits .f32 0xBF800000#32)
      (Ideal.ofBits .f32 0x00000000#32))

/-- One entry of the layer's result: row `(b, s)` of `x` against row `o` of the thresholded weight. -/
def linearAt (x : (⟨3, ![16, 4096, 512]⟩ : Shape).Idx → EReal) (w : (⟨2, ![512, 512]⟩ : Shape).Idx → EReal)
    (b : Fin 16) (s : Fin 4096) (o : Fin 512) : EReal :=
  ∑ k : Fin 512, x (ix3 b s k) * tern (w (ix2 o k))

/-- The layer's result as one function of the two argument arrays. -/
def linear (x : (⟨3, ![16, 4096, 512]⟩ : Shape).Idx → EReal) (w : (⟨2, ![512, 512]⟩ : Shape).Idx → EReal) :
    (⟨3, ![16, 4096, 512]⟩ : Shape).Idx → EReal :=
  fun i => linearAt x w (i 0) (i 1) (i 2)

/-- Adding a real number back after subtracting it: `r + (b - r) = b` for real `r` and ANY extended real `b`. -/
theorem real_add_sub_cancel (r : ℝ) (b : EReal) : (r : EReal) + (b - (r : EReal)) = b := by
  induction b using EReal.rec with
  | bot => rw [EReal.bot_sub, EReal.add_bot]
  | coe y => rw [← EReal.coe_sub, ← EReal.coe_add]; exact congrArg _ (by ring)
  | top => rw [EReal.top_sub_coe, EReal.coe_add_top]

end Cert.TernaryLinear

end
-- ==== Proof.Payload.lean ====
/-
  What the kernel body stores, at one entry of the block.

  The body loads a 2048-row block `xb` of the flattened `x` and the whole transposed weight `wt`, thresholds every
  entry of `wt`, and multiplies: entry `(p, q)` of the stored block is the sum over `k` of
  `xb (p, k) * tern (wt (k, q))`. (The two changes of float format are the identity on extended reals, the product
  accumulates into zero, and the shape casts are of a shape to itself.)
-/
import proofs.«127634_j42425686950159_2_alg».proof.Proof.Gen.KernelIdeal.Skeleton
import proofs.«127634_j42425686950159_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.TernaryLinear

local notation "D" => dot_S2048x512_S512x512_S2048x512_1_0_0_1_n_n

/-- The product's left operand keeps the output's row, -/
theorem lhs_row (j : S2048x512.Idx) (q : (D).contr.Idx) : ((D).lhsIdx j q 0).val = (j 0).val := by
  unfold DotDims.lhsIdx
  rw [dif_neg (show ¬(0 : Fin S2048x512.rank) ∈ (D).lhsBatch by decide),
    dif_pos (show (0 : Fin S2048x512.rank) ∈ (D).lhsNonContracting by decide)]
  rfl
/-- and runs along the contracted coordinate on its second axis. -/
theorem lhs_col (j : S2048x512.Idx) (q : (D).contr.Idx) : ((D).lhsIdx j q 1).val = (q ⟨0, by decide⟩).val :=
  (D).lhsIdx_val_of_single rfl j q
/-- The right operand runs along the contracted coordinate on its first axis, -/
theorem rhs_row (j : S2048x512.Idx) (q : (D).contr.Idx) : ((D).rhsIdx j q 0).val = (q ⟨0, by decide⟩).val :=
  (D).rhsIdx_val_of_single rfl j q
/-- and keeps the output's column. -/
theorem rhs_col (j : S2048x512.Idx) (q : (D).contr.Idx) : ((D).rhsIdx j q 1).val = (j 1).val := by
  unfold DotDims.rhsIdx
  rw [dif_neg (show ¬(1 : Fin S512x512.rank) ∈ (D).rhsBatch by decide),
    dif_pos (show (1 : Fin S512x512.rank) ∈ (D).rhsNonContracting by decide)]
  rfl

/-- The left operand's index at output `(p, q)` and contraction coordinate `k`: `(p, k)`. -/
theorem lhs_idx (j : S2048x512.Idx) (k : Fin 512) :
    (D).lhsIdx j ((contrEquiv1 (D) 512 rfl rfl).symm k) = ix2 (j 0) k := by
  have hk := contrEquiv1_symm_val (D) 512 rfl rfl k
  refine funext fun a => Fin.ext ?_
  match a with
  | ⟨0, _⟩ => exact lhs_row _ _
  | ⟨1, _⟩ => exact (lhs_col _ _).trans hk

/-- The right operand's: `(k, q)`. -/
theorem rhs_idx (j : S2048x512.Idx) (k : Fin 512) :
    (D).rhsIdx j ((contrEquiv1 (D) 512 rfl rfl).symm k) = ix2 k (j 1) := by
  have hk := contrEquiv1_symm_val (D) 512 rfl rfl k
  refine funext fun a => Fin.ext ?_
  match a with
  | ⟨0, _⟩ => exact (rhs_row _ _).trans hk
  | ⟨1, _⟩ => exact rhs_col _ _

/-- The stored block at entry `j = (p, q)`: row `p` of the loaded `x` block against column `q` of the thresholded
    transposed weight. -/
theorem pay_apply (xb : Vec Ideal S2048x512 .f32) (wt : Vec Ideal S512x512 .f32) (j : S2048x512.Idx) :
    k0_pay1 (F := Ideal) xb wt j = ∑ k : Fin 512, xb (ix2 (j 0) k) * tern (wt (ix2 k (j 1))) := by
  unfold k0_pay1
  simp only [matmul]
  rw [Ideal.matmul_constant_zero_apply, ← Equiv.sum_comp (contrEquiv1 (D) 512 rfl rfl).symm]
  refine Finset.sum_congr rfl fun k _ => ?_
  rw [lhs_idx, rhs_idx, shapeCast_self, shapeCast_self]
  rfl

end Cert.KernelIdeal.Payload

end
-- ==== Proof.Layout.lean ====
/-
  The kernel's arrangement of the same sums.

  The kernel flattens `x` to 65536 rows (row `b * 4096 + s` is row `(b, s)`), transposes the weight, and computes
  entry `(r, o)` of a 65536 x 512 array as the sum over `k` of `X (r, k) * tern (WT (k, o))`; the result is then cut
  back into 16 x 4096 rows. Reading the two reshapes by row-major position and the transpose by swapping coordinates,
  entry `(b, s, o)` of the result is `linearAt x w b s o`: the same terms in the same order.
-/
import proofs.«127634_j42425686950159_2_alg».proof.Proof.Spec
import Idealize.ShloMosaic.Lib.Pipeline.Value
import Idealize.ShloMosaic.Lib.ValueIdx

noncomputable section

open scoped BigOperators

namespace Cert.TernaryLinear

open Idealize.ShloMosaic Idealize.ShloMosaic.ValueIdx

/-- The flattened product: entry `(r, o)` from row `r` of `X` and column `o` of the thresholded `WT`. -/
def flat (X : (⟨2, ![65536, 512]⟩ : Shape).Idx → EReal) (WT : (⟨2, ![512, 512]⟩ : Shape).Idx → EReal) :
    (⟨2, ![65536, 512]⟩ : Shape).Idx → EReal :=
  fun i => ∑ k : Fin 512, X (ix2 (i 0) k) * tern (WT (ix2 k (i 1)))

/-- The flattened product of the flattened `x` and the transposed `w`, cut back into 16 x 4096 rows, is the layer. -/
theorem reshape_flat (x : (⟨3, ![16, 4096, 512]⟩ : Shape).Idx → EReal) (w : (⟨2, ![512, 512]⟩ : Shape).Idx → EReal)
    (hin : (⟨3, ![16, 4096, 512]⟩ : Shape).ShapeCasts ⟨2, ![65536, 512]⟩)
    (hout : (⟨2, ![65536, 512]⟩ : Shape).ShapeCasts ⟨3, ![16, 4096, 512]⟩)
    (ht : (⟨2, ![512, 512]⟩ : Shape).Transposes [1, 0] ⟨2, ![512, 512]⟩) :
    shapeCast ⟨3, ![16, 4096, 512]⟩ (flat (shapeCast ⟨2, ![65536, 512]⟩ x hin) (transpose ⟨2, ![512, 512]⟩ [1, 0] w ht)) hout
      = linear x w := by
  funext i
  have h0 : (i 0).val < 16 := (i 0).isLt
  have h1 : (i 1).val < 4096 := (i 1).isLt
  have h2 : (i 2).val < 512 := (i 2).isLt
  -- entry (b, s, o) of the cut-back array is entry (b * 4096 + s, o) of the flattened one
  refine (shapeCast_apply _ hout i (ix2 (⟨(i 0).val * 4096 + (i 1).val, by omega⟩ : Fin 65536) (⟨(i 2).val, h2⟩ : Fin 512)) (by
    rw [Shape.rowMajor_val_two, Shape.rowMajor_val_three]
    show ((i 0).val * 4096 + (i 1).val) * 512 + (i 2).val = ((i 0).val * 4096 + (i 1).val) * 512 + (i 2).val
    rfl)).trans ?_
  unfold flat linear linearAt
  refine Finset.sum_congr rfl fun k _ => ?_
  -- row b * 4096 + s of the flattened x is row (b, s) of x; entry (k, o) of the transposed weight is entry (o, k)
  have ex : shapeCast ⟨2, ![65536, 512]⟩ x hin (ix2 (⟨(i 0).val * 4096 + (i 1).val, by omega⟩ : Fin 65536) k)
      = x (ix3 (⟨(i 0).val, h0⟩ : Fin 16) (⟨(i 1).val, h1⟩ : Fin 4096) k) :=
    shapeCast_apply x hin _ _ (by
      rw [Shape.rowMajor_val_three, Shape.rowMajor_val_two]
      show ((i 0).val * 4096 + (i 1).val) * 512 + k.val = ((i 0).val * 4096 + (i 1).val) * 512 + k.val
      rfl)
  have ew : transpose ⟨2, ![512, 512]⟩ [1, 0] w ht (ix2 k (⟨(i 2).val, h2⟩ : Fin 512)) = w (ix2 (⟨(i 2).val, h2⟩ : Fin 512) k) :=
    transpose_apply [1, 0] w ht _ _ (fun b => match b with | ⟨0, _⟩ => rfl | ⟨1, _⟩ => rfl)
  exact congrArg₂ (fun a b => a * tern b) ex ew

end Cert.TernaryLinear

end
-- ==== Proof.Blocks.lean ====
/-
  From the blocks to the array.

  The grid has 32 points. Point `t` reads rows `2048 t … 2048 t + 2047` of the flattened `x` and the whole transposed
  weight, and writes back the same rows of the output: what it writes is therefore block `t` of the flattened product
  `flat X WT` of the two arrays as the region finds them. Row `r` lies in the block of point `r / 2048`, so the blocks
  cover the output and the array ends holding `flat X WT`.
-/
import proofs.«127634_j42425686950159_2_alg».proof.Proof.Gen.KernelIdeal.Frame
import proofs.«127634_j42425686950159_2_alg».proof.Proof.Payload
import proofs.«127634_j42425686950159_2_alg».proof.Proof.Layout
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.TernaryLinear
open Idealize.ShloMosaic.Pipeline (Dat)

variable (m : (ℓ : Loc nD τ sig) → Buf (Elt Ideal) ℓ)

/-- The body's rectangles start at the origin. -/
theorem origin : (![0, 0] : Fin 2 → Nat) = fun _ => 0 := funext fun a => by fin_cases a <;> rfl

/-- The index maps over the grid: the `x` block moves with the output block along the rows and both span all
    columns; the weight's one block never moves. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 32 row blocks is some point's. -/
theorem row_block_onto : ∀ q : Fin 32, ∃ t : Fin cfg0.N, win0_2.index t = ![q.val, 0] :=
  (by decide +kernel : ∀ q : Fin 32, ∃ t : Fin grid0.N, win0_2.index t = ![q.val, 0])

/-- What point `t` writes back is block `t` of the flattened product of the arrays as the region finds them. -/
theorem flushed_eq (c : Dev nD) (t : Fin cfg0.N) :
    (dats m 0 c).flushed 2 t = ((cfg0.win 2).blk t).view.read (Elt Ideal) (flat (V m c main_v0) (V m c main_v1)) := by
  show (cfg0.win 2).cut (grid0.coords t) ((dats m 0 c).after 2 t) = _
  rw [after0_2]
  unfold out0_2
  rw [View.canon_unit_zero origin]
  simp only [View.ld_unit_zero (S := S2048x512) origin, View.ld_unit_zero (S := S512x512) origin]
  obtain ⟨e0, e1, e2, e3, e4⟩ := index_maps t
  funext j
  show k0_pay1 (iblk m c 0 t) (iblk m c 1 t) j = flat (V m c main_v0) (V m c main_v1) (((cfg0.win 2).blk t).view.emb j)
  rw [Payload.pay_apply]
  unfold flat
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  refine congrArg₂ (fun (a b : EReal) => a * tern b) ?_ ?_
  · show V m c main_v0 (((cfg0.win 0).blk t).view.emb (ix2 (j 0) k)) = V m c main_v0 (ix2 ((((cfg0.win 2).blk t).view.emb j) 0) k)
    exact congrArg (V m c main_v0) h0
  · show V m c main_v1 (((cfg0.win 1).blk t).view.emb (ix2 k (j 1))) = V m c main_v1 (ix2 k ((((cfg0.win 2).blk t).view.emb j) 1))
    exact congrArg (V m c main_v1) h1

/-- An index of the output array is in point `t`'s block iff each coordinate is in the block's range on its axis. -/
theorem mem_blk (t : Fin cfg0.N) (i : S65536x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v2).slice (win0_2.rect t)).set ↔ _
  rw [View.set_slice_whole, Rect.mem_set_unit]
  exact Iff.rfl

/-- Row `r` of the output is written back by the point whose block is `r / 2048`. -/
theorem cover (i : S65536x512.Idx) : ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := row_block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The output array after the region: the flattened product of the arrays as the region finds them. -/
theorem final (c : Dev nD) : (dats m 0 c).arrAt 2 cfg0.N = flat (V m c main_v0) (V m c main_v1) :=
  (dats m 0 c).arrAt_eq_of_cover 2 _ (fun t _ => flushed_eq m c t) cover

end Cert.KernelIdeal.Blocks

end
-- ==== Proof.KernelRun.lean ====
/-
  The kernel's run, with its result named.

  Before the region the host flattens `x` to 65536 rows and transposes the weight; after it, the host cuts the
  region's 65536 x 512 output back into 16 x 4096 rows. The region's output is the flattened product of those two
  arrays (`Blocks.final`), so the result is the layer's value `linear x w` of the argument arrays (`reshape_flat`).
-/
import proofs.«127634_j42425686950159_2_alg».proof.Proof.Blocks
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.StableHlo Idealize.ShloMosaic.ValueIdx Cert.TernaryLinear
open Idealize.ShloMosaic.Pipeline (Dat)

variable (m : (ℓ : Loc nD τ sig) → Buf (Elt Ideal) ℓ) (ρ : Dev nD → PrngReg)

/-- The region finds the flattened `x` in its first window's array. -/
theorem entry_x (c : Dev nD) : (V m c main_v0 : S65536x512.Idx → EReal)
    = shapeCast S65536x512 (m ((c : Thread nD τ).loc main_arg0)) shapeCasts_S16x4096x512_S65536x512 := by
  show StableHlo.after hostOps0 (fun b => m (c, b)) (Proc.devRef .tc main_v0) = _
  after_results <;> rfl

/-- And the transposed weight in its second. -/
theorem entry_w (c : Dev nD) : (V m c main_v1 : S512x512.Idx → EReal)
    = transpose S512x512 [1, 0] (m ((c : Thread nD τ).loc main_arg1)) transposes_S512x512_S512x512_1_0 := by
  show StableHlo.after hostOps0 (fun b => m (c, b)) (Proc.devRef .tc main_v1) = _
  after_results <;> rfl

/-- The program's result after the host's last reshape: the layer's value of the argument arrays. -/
theorem result_eq (c : Dev nD) :
    Pipeline.afterTail₀ cfgs (dats m) 0 (V0 m) [hostOps1] c main_v3
      = linear (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = flat (V m c main_v0) (V m c main_v1) :=
    (Pipeline.withArrays_arr spec0 launch0.win.arr_inj c _ _ 2).trans (Blocks.final m c)
  rw [hw, entry_x, entry_w]
  funext i
  exact congrFun (reshape_flat _ _ _ _ _) i

/-- Every weakly fair execution of the idealized kernel terminates with its result at the layer's value of the argument
    arrays, and the arguments unchanged. -/
theorem run : θ_run defs (onTc (τ := τ) (main (F := Ideal))) ⟨m, fun _ => 0, ρ⟩ fun r => ∀ c : Dev nD,
      r.2.mem ((c.tc : Thread nD τ).loc main_v3) = linear (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelRun

end
-- ==== Proof.RefValue.lean ====
/-
  The reference computes the specification.

  The reference thresholds the weight and then spells the result `w + (tern w - w)` (a straight-through estimator's forward
  value); where the weight entry is a real number this is `tern w` (`real_add_sub_cancel`). Its contraction
  `'bsi,oi->bso'` pairs entry `(b, s, k)` of `x` with entry `(o, k)` of that weight, which is `linearAt` term by term.
-/
import proofs.«127634_j42425686950159_2_alg».proof.Proof.Gen.ReferenceIdeal.Read
import proofs.«127634_j42425686950159_2_alg».proof.Proof.Spec

noncomputable section

open scoped BigOperators

namespace Cert.ReferenceIdeal.RefValue

open Cert.ReferenceIdeal Cert.ReferenceIdeal.Read Idealize.ShloMosaic Idealize.ShloMosaic.ValueIdx Cert.TernaryLinear

/-- The reference's thresholded weight at an entry where the weight is real: `w + (tern w - w) = tern w`. -/
theorem ste_apply (w : (⟨S512x512, .f32⟩ : BufTy).Contents (Elt Ideal)) (j : S512x512.Idx) (hw : ∃ r : ℝ, w j = (r : EReal)) :
    val_main_v8 (F := Ideal) w j = tern (w j) := by
  obtain ⟨r, hr⟩ := hw
  rw [val_main_v8_apply, val_main_v7_apply, val_main_v6_apply, val_main_v5_apply, val_main_v4_apply, val_main_v1_apply,
    val_main_v3_apply, val_main_v0_apply, val_main_v2_apply, val_main_call1_v0_apply, val_main_call0_v0_apply,
    val_main_call0_v1_apply, val_main_cst_apply, val_main_cst_0_apply, val_main_cst_1_apply, val_main_cst_2_apply,
    val_main_cst_3_apply]
  simp only [Ideal.addf_def, Ideal.subf_def, Ideal.cmpf_def, Ideal.ofBits_def]
  rw [hr]
  exact real_add_sub_cancel r _

/-- The left operand's index of the contraction, by coordinates. -/
theorem lidx_eq (i : S16x4096x512.Idx) (k : Fin 512) : lidx_main_v9 i k = ix3 (i 0) (i 1) k :=
  funext fun a => by match a with | ⟨0, _⟩ => rfl | ⟨1, _⟩ => rfl | ⟨2, _⟩ => rfl

/-- The right operand's: row `o` of the weight, column `k`. -/
theorem ridx_eq (i : S16x4096x512.Idx) (k : Fin 512) : ridx_main_v9 i k = ix2 (i 2) k :=
  funext fun a => by match a with | ⟨0, _⟩ => rfl | ⟨1, _⟩ => rfl

/-- The reference's result, for a weight of real entries, is the layer's. -/
theorem reference_eq (x : (⟨S16x4096x512, .f32⟩ : BufTy).Contents (Elt Ideal)) (w : (⟨S512x512, .f32⟩ : BufTy).Contents (Elt Ideal))
    (hw : ∀ j, ∃ r : ℝ, w j = (r : EReal)) :
    val_main_v9 (F := Ideal) x w = linear x w := by
  funext i
  rw [val_main_v9_apply]
  unfold linear linearAt
  refine Finset.sum_congr rfl fun k _ => ?_
  rw [ste_apply w _ (hw _), lidx_eq, ridx_eq]
  rfl

end Cert.ReferenceIdeal.RefValue

end
-- ==== Proof.Finite.lean ====
/-
  What the precondition gives: every entry of the weight is a real number.

  The precondition is the conjunction of two tests, one per input: that every entry's absolute value is below `+∞`.
  An extended real whose absolute value `max a (-a)` is below `⊤` is neither `⊤` nor `⊥`, so it is a real number.
  Only the weight's half is used: the layer's sums are the same terms on both sides whatever `x` holds.
-/
import proofs.«127634_j42425686950159_2_alg».proof.Pre_finite_inputs
import proofs.«127634_j42425686950159_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- The f32 word of `+∞` is the top extended real. -/
theorem ofBits_inf : Ideal.ofBits .f32 0x7F800000#32 = ⊤ := by simp [Ideal.ofBits, Ideal.ieee]

/-- An extended real whose absolute value is below `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- Under the precondition every entry of the weight is a real number. -/
theorem weight_real (x : FVec Ideal S16x4096x512 .f32) (w : FVec Ideal S512x512 .f32)
    (h : fn (F := Ideal) x w = fun _ => 1#1) (j : S512x512.Idx) : ∃ r : ℝ, w j = (r : EReal) := by
  have h0 := congrFun h ix0
  dsimp only [fn] at h0
  have h1 := (IntOp.andi_eq_one.mp h0).2
  have h2 := Host.reduce_andi_all _ _ _ _ _ h1 j
  exact real_of_abs_lt_inf _ h2

end Cert.Pre_finite_inputs.Finite

end
-- ==== Proof.lean ====
/-
  A ternary-quantized linear layer: the kernel and its reference compute the same extended reals.

  Both programs send each weight entry `w` to its ternary threshold `tern w` (`1` above `0.3`, `-1` below `-0.3`, else
  `0`) and apply the thresholded weight to `x`: entry `(b, s, o)` of the result is the sum over `k` of
  `x (b, s, k) * tern (w (o, k))` (Proof/Spec.lean).

  The kernel flattens `x` to 65536 rows, transposes the weight, and computes 2048 rows per grid point as one matrix
  product with the thresholded block (Proof/Payload.lean); the 32 blocks tile the output (Proof/Blocks.lean), and undoing
  the reshape and the transpose index by index gives the sums above (Proof/Layout.lean, Proof/KernelRun.lean).

  The reference spells the thresholded weight `w + (tern w - w)` before contracting. On the extended reals
  `r + (b - r) = b` holds for a real `r` and fails at the infinities, so this is where the precondition is used: it makes
  every weight entry a real number (Proof/Finite.lean, Proof/RefValue.lean). Nothing is asked of `x`: its entries meet
  the same factors in the same order on both sides.

  The idealization rewrote no operation, so `preserves` is `True`; the three frames are the generated ones.
-/
import proofs.«127634_j42425686950159_2_alg».proof.Defs
import proofs.«127634_j42425686950159_2_alg».proof.Proof.Gen.Kernel
import proofs.«127634_j42425686950159_2_alg».proof.Proof.Gen.Kernel.Skeleton
import proofs.«127634_j42425686950159_2_alg».proof.Proof.Gen.Kernel.Launch
import proofs.«127634_j42425686950159_2_alg».proof.Proof.Gen.Kernel.Points
import proofs.«127634_j42425686950159_2_alg».proof.Proof.Gen.Kernel.Frame
import proofs.«127634_j42425686950159_2_alg».proof.Proof.Gen.KernelIdeal
import proofs.«127634_j42425686950159_2_alg».proof.Proof.Gen.KernelIdeal.Skeleton
import proofs.«127634_j42425686950159_2_alg».proof.Proof.Gen.KernelIdeal.Launch
import proofs.«127634_j42425686950159_2_alg».proof.Proof.Gen.KernelIdeal.Points
import proofs.«127634_j42425686950159_2_alg».proof.Proof.Gen.KernelIdeal.Frame
import proofs.«127634_j42425686950159_2_alg».proof.Proof.Gen.ReferenceIdeal
import proofs.«127634_j42425686950159_2_alg».proof.Proof.Gen.ReferenceIdeal.Run
import proofs.«127634_j42425686950159_2_alg».proof.Proof.Gen.ReferenceIdeal.Read
import proofs.«127634_j42425686950159_2_alg».proof.Proof.Gen.Pre_finite_inputs
import proofs.«127634_j42425686950159_2_alg».proof.Proof.KernelRun
import proofs.«127634_j42425686950159_2_alg».proof.Proof.RefValue
import proofs.«127634_j42425686950159_2_alg».proof.Proof.Finite
import Idealize.ShloMosaic.Adequacy
import Idealize.ShloMosaic.Init

noncomputable section

namespace Cert.Proof

open Idealize.ShloMosaic Idealize.SL.Sem Cert.TernaryLinear

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on `x` and the weight, with the weight finite, both programs end with the layer's value
    `linear x w`: the kernel by its run, the reference by its run and the cancellation `w + (tern w - w) = tern w`. -/
theorem algebraic : Cert.algebraic_KernelIdeal_ReferenceIdeal := by
  intro m ρ m' ρ' hpre hagree
  refine ⟨fun c => linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2]
  exact Cert.ReferenceIdeal.RefValue.reference_eq _ _ (Cert.Pre_finite_inputs.Finite.weight_real _ _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
